-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S_ : Shape := ⟨0, ![]⟩

class Facts : Prop where
  bcast_S_S10000x2 : S_.BroadcastsInDim S10000x2 (![] : Fin 0 → Fin S10000x2.rank)
  reducesTo_S10000x2_S_d0_1 : S10000x2.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S2x5 : S_.BroadcastsInDim S2x5 (![] : Fin 0 → Fin S2x5.rank)
  reducesTo_S2x5_S_d0_1 : S2x5.ReducesTo [0, 1] S_
  bcast_S_S5 : S_.BroadcastsInDim S5 (![] : Fin 0 → Fin S5.rank)
  reducesTo_S5_S_d0 : S5.ReducesTo [0] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S1x10000 : S_.BroadcastsInDim S1x10000 (![] : Fin 0 → Fin S1x10000.rank)
  reducesTo_S1x10000_S_d0_1 : S1x10000.ReducesTo [0, 1] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S5x1 .f32) (main_arg5 : FVec F S1 .f32) (main_arg6 : FVec F S1x10000 .f32) (main_arg7 : FVec F S1 .f32) (main_v13 : IVec S_ 1) (main_v16 : IVec S5 1) : IVec S_ 1 :=
  let main_c_5 : IVec S_ 1 := constantI S_ 1 1#1
  let main_v17 : IVec S_ 1 := (fun x v => Host.reduce IntOp.andi x v reducesTo_S5_S_d0 h_S_) main_v16 main_c_5
  let main_v18 : IVec S_ 1 := andi main_v13 main_v17
  let main_v19 : FVec F S5x1 .f32 := Host.absf main_arg4
  let main_cst_6 : FVec F S_ .f32 := constant S_ .f32 0x7F800000#32
  let main_v20 : FVec F S5x1 .f32 := broadcastInDim S5x1 ![] bcast_S_S5x1 main_cst_6
  let main_v21 : IVec S5x1 1 := cmpf .olt main_v19 main_v20
  let main_c_7 : IVec S_ 1 := constantI S_ 1 1#1
  let main_v22 : IVec S_ 1 := (fun x v => Host.reduce IntOp.andi x v reducesTo_S5x1_S_d0_1 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S1x10000 .f32 := Host.absf main_arg6
  let main_cst_10 : FVec F S_ .f32 := constant S_ .f32 0x7F800000#32
  let main_v30 : FVec F S1x10000 .f32 := broadcastInDim S1x10000 ![] bcast_S_S1x10000 main_cst_10
  let main_v31 : IVec S1x10000 1 := cmpf .olt main_v29 main_v30
  let main_c_11 : IVec S_ 1 := constantI S_ 1 1#1
  let main_v32 : IVec S_ 1 := (fun x v => Host.reduce IntOp.andi x v reducesTo_S1x10000_S_d0_1 h_S_) main_v31 main_c_11
  let main_v33 : IVec S_ 1 := andi main_v28 main_v32
  fn_part2 (F := F) main_arg7 main_v33

def fn {F : FTy → Type} [FloatOps F] (main_arg0 : FVec F S10000x2 .f32) (main_arg1 : FVec F S10000x10000 .f32) (main_arg2 : FVec F S2x5 .f32) (main_arg3 : FVec F S5 .f32) (main_arg4 : FVec F S5x1 .f32) (main_arg5 : FVec F S1 .f32) (main_arg6 : FVec F S1x10000 .f32) (main_arg7 : FVec F S1 .f32) : IVec S_ 1 :=
  let main_v0 : FVec F S10000x2 .f32 := Host.absf main_arg0
  let main_cst : FVec F S_ .f32 := constant S_ .f32 0x7F800000#32
  let main_v1 : FVec F S10000x2 .f32 := broadcastInDim S10000x2 ![] bcast_S_S10000x2 main_cst
  let main_v2 : IVec S10000x2 1 := cmpf .olt main_v0 main_v1
  let main_c : IVec S_ 1 := constantI S_ 1 1#1
  let main_v3 : IVec S_ 1 := (fun x v => Host.reduce IntOp.andi x v reducesTo_S10000x2_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S2x5 .f32 := Host.absf main_arg2
  let main_cst_2 : FVec F S_ .f32 := constant S_ .f32 0x7F800000#32
  let main_v10 : FVec F S2x5 .f32 := broadcastInDim S2x5 ![] bcast_S_S2x5 main_cst_2
  let main_v11 : IVec S2x5 1 := cmpf .olt main_v9 main_v10
  let main_c_3 : IVec S_ 1 := constantI S_ 1 1#1
  let main_v12 : IVec S_ 1 := (fun x v => Host.reduce IntOp.andi x v reducesTo_S2x5_S_d0_1 h_S_) main_v11 main_c_3
  let main_v13 : IVec S_ 1 := andi main_v8 main_v12
  let main_v14 : FVec F S5 .f32 := Host.absf main_arg3
  let main_cst_4 : FVec F S_ .f32 := constant S_ .f32 0x7F800000#32
  let main_v15 : FVec F S5 .f32 := broadcastInDim S5 ![] bcast_S_S5 main_cst_4
  let main_v16 : IVec S5 1 := cmpf .olt main_v14 main_v15
  fn_part1 (F := F) main_arg4 main_arg5 main_arg6 main_arg7 main_v13 main_v16
-- ==== Kernel.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S10000x5 : Shape := ⟨2, ![10000, 5]⟩
abbrev S1x5 : Shape := ⟨2, ![1, 5]⟩
abbrev S10000x1 : Shape := ⟨2, ![10000, 1]⟩
abbrev S200x10000 : Shape := ⟨2, ![200, 10000]⟩
abbrev S200x1 : Shape := ⟨2, ![200, 1]⟩
abbrev S200x5 : Shape := ⟨2, ![200, 5]⟩
abbrev S1x1 : Shape := ⟨2, ![1, 1]⟩
abbrev S_ : Shape := ⟨0, ![]⟩

abbrev nBuf : Space → Nat
  | .hbm => 26
  | .vmem => 13
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x1, .f32⟩
  | .hbm, ⟨5, _⟩ => ⟨S1, .f32⟩
  | .hbm, ⟨6, _⟩ => ⟨S1x10000, .f32⟩
  | .hbm, ⟨7, _⟩ => ⟨S1, .f32⟩
  | .hbm, ⟨8, _⟩ => ⟨S10000x5, .f32⟩
  | .hbm, ⟨9, _⟩ => ⟨S1x5, .f32⟩
  | .hbm, ⟨10, _⟩ => ⟨S10000x1, .f32⟩
  | .hbm, ⟨11, _⟩ => ⟨S1x1, .f32⟩
  | .hbm, ⟨12, _⟩ => ⟨S10000x1, .f32⟩
  | .hbm, ⟨13, _⟩ => ⟨S1x10000, .f32⟩
  | .hbm, ⟨14, _⟩ => ⟨S10000x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S_, .f32⟩
  | .hbm, ⟨21, _⟩ => ⟨S1x1, .f32⟩
  | .hbm, ⟨22, _⟩ => ⟨S1x1, .f32⟩
  | .hbm, ⟨23, _⟩ => ⟨S_, .f32⟩
  | .hbm, ⟨24, _⟩ => ⟨S1x1, .f32⟩
  | .hbm, ⟨25, _⟩ => ⟨S1x1, .f32⟩
  | .local _ .vmem, ⟨0, _⟩ => ⟨S200x10000, .f32⟩
  | .local _ .vmem, ⟨1, _⟩ => ⟨S200x10000, .f32⟩
  | .local _ .vmem, ⟨2, _⟩ => ⟨S10000x5, .f32⟩
  | .local _ .vmem, ⟨3, _⟩ => ⟨S1x5, .f32⟩
  | .local _ .vmem, ⟨4, _⟩ => ⟨S5x1, .f32⟩
  | .local _ .vmem, ⟨5, _⟩ => ⟨S200x1, .f32⟩
  | .local _ .vmem, ⟨6, _⟩ => ⟨S200x1, .f32⟩
  | .local _ .vmem, ⟨7, _⟩ => ⟨S200x10000, .f32⟩
  | .local _ .vmem, ⟨8, _⟩ => ⟨S200x10000, .f32⟩
  | .local _ .vmem, ⟨9, _⟩ => ⟨S10000x1, .f32⟩
  | .local _ .vmem, ⟨10, _⟩ => ⟨S1x1, .f32⟩
  | .local _ .vmem, ⟨11, _⟩ => ⟨S200x1, .f32⟩
  | .local _ .vmem, ⟨12, _⟩ => ⟨S200x1, .f32⟩
  | _, _ => ⟨S10000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x5 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S5_S1x5 : S5.ShapeCasts S1x5
  inb_S200x10000_S200x10000_0_0 : ∀ a, (![0, 0] : Fin 2 → Nat) a + S200x10000.size a ≤ S200x10000.size a
  h_S200x10000 : 0 < S200x10000.numel
  inb_S10000x5_S10000x5_0_0 : ∀ a, (![0, 0] : Fin 2 → Nat) a + S10000x5.size a ≤ S10000x5.size a
  h_S10000x5 : 0 < S10000x5.numel
  shapeCasts_S10000x5_S10000x5 : S10000x5.ShapeCasts S10000x5
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S200x5 : S1x5.Broadcasts S200x5
  inb_S5x1_S5x1_0_0 : ∀ a, (![0, 0] : Fin 2 → Nat) a + S5x1.size a ≤ S5x1.size a
  h_S5x1 : 0 < S5x1.numel
  inb_S200x1_S200x1_0_0 : ∀ a, (![0, 0] : Fin 2 → Nat) a + S200x1.size a ≤ S200x1.size a
  h_S200x1 : 0 < S200x1.numel
  shapeCasts_S1_S1x1 : S1.ShapeCasts S1x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  shapeCasts_S10000x1_S1x10000 : S10000x1.ShapeCasts S1x10000
  transposes_S1x10000_S10000x1_1_0 : S1x10000.Transposes [1, 0] S10000x1
  bcast_S1_S1x1_1 : S1.BroadcastsInDim S1x1 (![1] : Fin 1 → Fin S1x1.rank)
  bcast_S_S1x1 : S_.BroadcastsInDim S1x1 (![] : Fin 0 → Fin S1x1.rank)
  dot_S10000x2_S2x5_S10000x5_1_0_0_1_n_n_wf : DotDims.WF S10000x2 S2x5 S10000x5 [1] [0] [0] [1] [] []
  dot_S200x10000_S10000x5_S200x5_1_0_0_1_n_n_wf : DotDims.WF S200x10000 S10000x5 S200x5 [1] [0] [0] [1] [] []
  dot_S200x5_S5x1_S200x1_1_0_0_1_n_n_wf : DotDims.WF S200x5 S5x1 S200x1 [1] [0] [0] [1] [] []
  dot_S200x10000_S10000x1_S200x1_1_0_0_1_n_n_wf : DotDims.WF S200x10000 S10000x1 S200x1 [1] [0] [0] [1] [] []
  dot_S1x10000_S10000x1_S1x1_1_0_0_1_n_n_wf : DotDims.WF S1x10000 S10000x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x5.size a ≤ S10000x5.size a
  hwx0_1 : ∀ i : grid0.Coords, EltTy.bits .f32 = 32 ∨ (Rect.block (s := S10000x5) S10000x5.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x5.size a ≤ S1x5.size a
  hwx0_2 : ∀ i : grid0.Coords, EltTy.bits .f32 = 32 ∨ (Rect.block (s := S1x5) S1x5.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x1.size a ≤ S5x1.size a
  hwx0_3 : ∀ i : grid0.Coords, EltTy.bits .f32 = 32 ∨ (Rect.block (s := S5x1) S5x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x1.size a ≤ S10000x1.size a
  hwx0_4 : ∀ i : grid0.Coords, EltTy.bits .f32 = 32 ∨ (Rect.block (s := S10000x1) S200x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S10000x1.size a
  hwx1_1 : ∀ i : grid1.Coords, EltTy.bits .f32 = 32 ∨ (Rect.block (s := S10000x1) S10000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x1.size a ≤ S10000x1.size a
  hwx1_3 : ∀ i : grid1.Coords, EltTy.bits .f32 = 32 ∨ (Rect.block (s := S10000x1) S200x1.size (cc1_transform_3 i) (hinb1_3 i)).WholeWords (EltTy.packing .f32)

variable [Facts₀]

def dot_S10000x2_S2x5_S10000x5_1_0_0_1_n_n : DotDims S10000x2 S2x5 S10000x5 where
  lhsContracting := [1]
  rhsContracting := [0]
  lhsNonContracting := [0]
  rhsNonContracting := [1]
  lhsBatch := []
  rhsBatch := []
  wf := dot_S10000x2_S2x5_S10000x5_1_0_0_1_n_n_wf
def dot_S200x10000_S10000x5_S200x5_1_0_0_1_n_n : DotDims S200x10000 S10000x5 S200x5 where
  lhsContracting := [1]
  rhsContracting := [0]
  lhsNonContracting := [0]
  rhsNonContracting := [1]
  lhsBatch := []
  rhsBatch := []
  wf := dot_S200x10000_S10000x5_S200x5_1_0_0_1_n_n_wf
def dot_S200x5_S5x1_S200x1_1_0_0_1_n_n : DotDims S200x5 S5x1 S200x1 where
  lhsContracting := [1]
  rhsContracting := [0]
  lhsNonContracting := [0]
  rhsNonContracting := [1]
  lhsBatch := []
  rhsBatch := []
  wf := dot_S200x5_S5x1_S200x1_1_0_0_1_n_n_wf
def dot_S200x10000_S10000x1_S200x1_1_0_0_1_n_n : DotDims S200x10000 S10000x1 S200x1 where
  lhsContracting := [1]
  rhsContracting := [0]
  lhsNonContracting := [0]
  rhsNonContracting := [1]
  lhsBatch := []
  rhsBatch := []
  wf := dot_S200x10000_S10000x1_S200x1_1_0_0_1_n_n_wf
def dot_S1x10000_S10000x1_S1x1_1_0_0_1_n_n : DotDims S1x10000 S10000x1 S1x1 where
  lhsContracting := [1]
  rhsContracting := [0]
  lhsNonContracting := [0]
  rhsNonContracting := [1]
  lhsBatch := []
  rhsBatch := []
  wf := dot_S1x10000_S10000x1_S1x1_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S10000x5.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x5.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S5x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S200x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S200x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x2 : Shape := ⟨2, ![10000, 2]⟩
abbrev S10000x10000 : Shape := ⟨2, ![10000, 10000]⟩
abbrev S2x5 : Shape := ⟨2, ![2, 5]⟩
abbrev S5 : Shape := ⟨1, ![5]⟩
abbrev S5x1 : Shape := ⟨2, ![5, 1]⟩
abbrev S1 : Shape := ⟨1, ![1]⟩
abbrev S1x10000 : Shape := ⟨2, ![1, 10000]⟩
abbrev S10000x5 : Shape := ⟨2, ![10000, 5]⟩
abbrev S1x5 : Shape := ⟨2, ![1, 5]⟩
abbrev S_ : Shape := ⟨0, ![]⟩
abbrev S10000x1 : Shape := ⟨2, ![10000, 1]⟩
abbrev S1x1 : Shape := ⟨2, ![1, 1]⟩

abbrev nBuf : Space → Nat
  | .hbm => 34
  | .vmem => 0
  | .smem => 0
  | _ => 0

abbrev bufTy : (tb : Table) → Fin (tcTables nBuf tb) → BufTy
  | .hbm, ⟨0, _⟩ => ⟨S10000x2, .f32⟩
  | .hbm, ⟨1, _⟩ => ⟨S10000x10000, .f32⟩
  | .hbm, ⟨2, _⟩ => ⟨S2x5, .f32⟩
  | .hbm, ⟨3, _⟩ => ⟨S5, .f32⟩
  | .hbm, ⟨4, _⟩ => ⟨S5x1, .f32⟩
  | .hbm, ⟨5, _⟩ => ⟨S1, .f32⟩
  | .hbm, ⟨6, _⟩ => ⟨S1x10000, .f32⟩
  | .hbm, ⟨7, _⟩ => ⟨S1, .f32⟩
  | .hbm, ⟨8, _⟩ => ⟨S10000x5, .f32⟩
  | .hbm, ⟨9, _⟩ => ⟨S10000x5, .f32⟩
  | .hbm, ⟨10, _⟩ => ⟨S1x5, .f32⟩
  | .hbm, ⟨11, _⟩ => ⟨S10000x5, .f32⟩
  | .hbm, ⟨12, _⟩ => ⟨S10000x5, .f32⟩
  | .hbm, ⟨13, _⟩ => ⟨S_, .f32⟩
  | .hbm, ⟨14, _⟩ => ⟨S10000x5, .f32⟩
  | .hbm, ⟨15, _⟩ => ⟨S10000x5, .f32⟩
  | .hbm, ⟨16, _⟩ => ⟨S10000x1, .f32⟩
  | .hbm, ⟨17, _⟩ => ⟨S10000x1, .f32⟩
  | .hbm, ⟨18, _⟩ => ⟨S1x1, .f32⟩
  | .hbm, ⟨19, _⟩ => ⟨S10000x1, .f32⟩
  | .hbm, ⟨20, _⟩ => ⟨S10000x1, .f32⟩
  | .hbm, ⟨21, _⟩ => ⟨S1x10000, .f32⟩
  | .hbm, ⟨22, _⟩ => ⟨S10000x1, .f32⟩
  | .hbm, ⟨23, _⟩ => ⟨S1x1, .f32⟩
  | .hbm, ⟨24, _⟩ => ⟨S1x1, .f32⟩
  | .hbm, ⟨25, _⟩ => ⟨S1x1, .f32⟩
  | .hbm, ⟨26, _⟩ => ⟨S1x1, .f32⟩
  | .hbm, ⟨27, _⟩ => ⟨S1x1, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S_, .f32⟩
  | .hbm, ⟨32, _⟩ => ⟨S1x1, .f32⟩
  | .hbm, ⟨33, _⟩ => ⟨S1x1, .f32⟩
  | _, _ => ⟨S10000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst : Ref sig .tc := ⟨.hbm, 28, rfl⟩
abbrev main_v18 : Ref sig .tc := ⟨.hbm, 29, rfl⟩
abbrev main_v19 : Ref sig .tc := ⟨.hbm, 30, rfl⟩
abbrev main_cst_0 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S5_S1x5_1 : S5.BroadcastsInDim S1x5 (![1] : Fin 1 → Fin S1x5.rank)
  bcast_S1x5_S10000x5_0_1 : S1x5.BroadcastsInDim S10000x5 (![0, 1] : Fin 2 → Fin S10000x5.rank)
  bcast_S_S10000x5 : S_.BroadcastsInDim S10000x5 (![] : Fin 0 → Fin S10000x5.rank)
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S1x10000 : S10000x1.ShapeCasts S1x10000
  transposes_S1x10000_S10000x1_1_0 : S1x10000.Transposes [1, 0] S10000x1
  bcast_S_S1x1 : S_.BroadcastsInDim S1x1 (![] : Fin 0 → Fin S1x1.rank)
  dot_S10000x2_S2x5_S10000x5_1_0_0_1_n_n_wf : DotDims.WF S10000x2 S2x5 S10000x5 [1] [0] [0] [1] [] []
  dot_S10000x10000_S10000x5_S10000x5_1_0_0_1_n_n_wf : DotDims.WF S10000x10000 S10000x5 S10000x5 [1] [0] [0] [1] [] []
  dot_S10000x5_S5x1_S10000x1_1_0_0_1_n_n_wf : DotDims.WF S10000x5 S5x1 S10000x1 [1] [0] [0] [1] [] []
  dot_S10000x10000_S10000x1_S10000x1_1_0_0_1_n_n_wf : DotDims.WF S10000x10000 S10000x1 S10000x1 [1] [0] [0] [1] [] []
  dot_S1x10000_S10000x1_S1x1_1_0_0_1_n_n_wf : DotDims.WF S1x10000 S10000x1 S1x1 [1] [0] [0] [1] [] []

variable [Facts₀]

def dot_S10000x2_S2x5_S10000x5_1_0_0_1_n_n : DotDims S10000x2 S2x5 S10000x5 where
  lhsContracting := [1]
  rhsContracting := [0]
  lhsNonContracting := [0]
  rhsNonContracting := [1]
  lhsBatch := []
  rhsBatch := []
  wf := dot_S10000x2_S2x5_S10000x5_1_0_0_1_n_n_wf
def dot_S10000x10000_S10000x5_S10000x5_1_0_0_1_n_n : DotDims S10000x10000 S10000x5 S10000x5 where
  lhsContracting := [1]
  rhsContracting := [0]
  lhsNonContracting := [0]
  rhsNonContracting := [1]
  lhsBatch := []
  rhsBatch := []
  wf := dot_S10000x10000_S10000x5_S10000x5_1_0_0_1_n_n_wf
def dot_S10000x5_S5x1_S10000x1_1_0_0_1_n_n : DotDims S10000x5 S5x1 S10000x1 where
  lhsContracting := [1]
  rhsContracting := [0]
  lhsNonContracting := [0]
  rhsNonContracting := [1]
  lhsBatch := []
  rhsBatch := []
  wf := dot_S10000x5_S5x1_S10000x1_1_0_0_1_n_n_wf
def dot_S10000x10000_S10000x1_S10000x1_1_0_0_1_n_n : DotDims S10000x10000 S10000x1 S10000x1 where
  lhsContracting := [1]
  rhsContracting := [0]
  lhsNonContracting := [0]
  rhsNonContracting := [1]
  lhsBatch := []
  rhsBatch := []
  wf := dot_S10000x10000_S10000x1_S10000x1_1_0_0_1_n_n_wf
def dot_S1x10000_S10000x1_S1x1_1_0_0_1_n_n : DotDims S1x10000 S10000x1 S1x1 where
  lhsContracting := [1]
  rhsContracting := [0]
  lhsNonContracting := [0]
  rhsNonContracting := [1]
  lhsBatch := []
  rhsBatch := []
  wf := dot_S1x10000_S10000x1_S1x1_1_0_0_1_n_n_wf

class Facts : Prop extends Facts₀ where

variable [Facts]
-- ==== Proof.Spec.lean ====
import Idealize.ShloMosaic.PureOps.Ideal.Laws
import Idealize.ShloMosaic.Lib.ValueIdx

/-!
# Two graph-convolution layers, row by row

For a weighted adjacency matrix `adj` (n × n, n = 10000), node features already projected to five channels
`P = x · W₁` (n × 5), biases `b₁` (5 channels), `b₂` (one number) and the second layer's weights `w₂`
(5 channels to one), the network computes, for every node `p`,

* the hidden row `relu (∑ⱼ adj p j · P j c + b₁ c)` for each channel `c`, projected at once to one number:
  `hidden p = ∑_c max (∑ⱼ adj p j · P j c + b₁ c) 0 · w₂ c`;
* the score `score p = ∑ⱼ adj p j · q j + b₂`, where `q` is the column of hidden projections.

Both programs compute exactly these two sums, in this order and with this grouping, on the extended reals: one of
them a whole matrix product at a time, the other in blocks of 200 consecutive rows. Nothing is regrouped, so no
finiteness of the entries is needed anywhere.
-/

noncomputable section

namespace Cert.GraphConv

open Idealize.ShloMosaic Idealize.ShloMosaic.ValueIdx

/-- Node `p`'s hidden row, projected to one number: each of the five channels is the adjacency row times that
    channel's column of `P`, plus the channel's bias, clamped below at zero; the channels are then combined by
    the second layer's weights. -/
def hidden (adj : (⟨2, ![10000, 10000]⟩ : Shape).Idx → EReal) (P : (⟨2, ![10000, 5]⟩ : Shape).Idx → EReal)
    (b : Fin 5 → EReal) (w : Fin 5 → EReal) (p : Fin 10000) : EReal :=
  ∑ c : Fin 5, max ((∑ j : Fin 10000, adj (ix2 p j) * P (ix2 j c)) + b c) 0 * w c

/-- Node `p`'s score: the adjacency row times the column `q`, plus the bias. -/
def score (adj : (⟨2, ![10000, 10000]⟩ : Shape).Idx → EReal) (q : Fin 10000 → EReal) (b : EReal)
    (p : Fin 10000) : EReal :=
  (∑ j : Fin 10000, adj (ix2 p j) * q j) + b

/-- The column of every node's score, as one n × 1 array of the arguments: the adjacency matrix, the projected
    features, the two biases as they are given (five numbers; one number) and the second layer's weights (5 × 1). -/
def scoreColumn (adj : (⟨2, ![10000, 10000]⟩ : Shape).Idx → EReal) (P : (⟨2, ![10000, 5]⟩ : Shape).Idx → EReal)
    (b1 : (⟨1, ![5]⟩ : Shape).Idx → EReal) (w2 : (⟨2, ![5, 1]⟩ : Shape).Idx → EReal) (b2 : (⟨1, ![1]⟩ : Shape).Idx → EReal) :
    (⟨2, ![10000, 1]⟩ : Shape).Idx → EReal :=
  fun j => score adj (hidden adj P (fun c => b1 (ix1 c)) (fun c => w2 (ix2 c (0 : Fin 1)))) (b2 (ix1 (0 : Fin 1)))
    ⟨(j 0).val, idx2_lt0 j⟩

theorem scoreColumn_apply (adj : (⟨2, ![10000, 10000]⟩ : Shape).Idx → EReal) (P : (⟨2, ![10000, 5]⟩ : Shape).Idx → EReal)
    (b1 : (⟨1, ![5]⟩ : Shape).Idx → EReal) (w2 : (⟨2, ![5, 1]⟩ : Shape).Idx → EReal) (b2 : (⟨1, ![1]⟩ : Shape).Idx → EReal)
    (p : Fin 10000) :
    scoreColumn adj P b1 w2 b2 (ix2 p (0 : Fin 1))
      = score adj (hidden adj P (fun c => b1 (ix1 c)) (fun c => w2 (ix2 c (0 : Fin 1)))) (b2 (ix1 (0 : Fin 1))) p := rfl

/-- The read-out, from the column of scores to one probability: the scores laid out as a row, multiplied into the
    read-out weights (given as a row, used as a column), plus the bias, through the logistic function written as
    `1 / (1 + exp (-z))`. Both programs apply these same operations to their column of scores, so the
    function is only ever named, never opened. -/
def readout {F : FTy → Type} [FloatOps F]
    (d : DotDims ⟨2, ![1, 10000]⟩ ⟨2, ![10000, 1]⟩ ⟨2, ![1, 1]⟩)
    (hcast : (⟨2, ![10000, 1]⟩ : Shape).ShapeCasts ⟨2, ![1, 10000]⟩)
    (htr : (⟨2, ![1, 10000]⟩ : Shape).Transposes [1, 0] ⟨2, ![10000, 1]⟩)
    (hb1 : (⟨1, ![1]⟩ : Shape).BroadcastsInDim ⟨2, ![1, 1]⟩ (![1] : Fin 1 → Fin (⟨2, ![1, 1]⟩ : Shape).rank))
    (hb0 : (⟨0, ![]⟩ : Shape).BroadcastsInDim ⟨2, ![1, 1]⟩ (![] : Fin 0 → Fin (⟨2, ![1, 1]⟩ : Shape).rank))
    (s : FVec F ⟨2, ![10000, 1]⟩ .f32) (w : FVec F ⟨2, ![1, 10000]⟩ .f32) (b : FVec F ⟨1, ![1]⟩ .f32) :
    FVec F ⟨2, ![1, 1]⟩ .f32 :=
  Host.divf (broadcastInDim ⟨2, ![1, 1]⟩ ![] hb0 (constant ⟨0, ![]⟩ .f32 0x3F800000#32))
    (addf (broadcastInDim ⟨2, ![1, 1]⟩ ![] hb0 (constant ⟨0, ![]⟩ .f32 0x3F800000#32))
      (Host.exp (Host.negf (addf
        (Host.dotGeneral d none (shapeCast ⟨2, ![1, 10000]⟩ s hcast) (transpose ⟨2, ![10000, 1]⟩ [1, 0] w htr))
        (broadcastInDim ⟨2, ![1, 1]⟩ ![1] hb1 b)))))

/-- An index of an n × 1 array is its row with column zero. -/
theorem exists_row {n : Nat} (j : (⟨2, ![n, 1]⟩ : Shape).Idx) : ∃ p : Fin n, j = ix2 p (0 : Fin 1) := by
  obtain ⟨p, q, rfl⟩ : ∃ (p : Fin n) (q : Fin 1), j = ix2 p q := ⟨j 0, j 1, eq_ix2 j⟩
  obtain rfl : q = 0 := Subsingleton.elim _ _
  exact ⟨p, rfl⟩

/-- Two n × 1 arrays that agree on every row are equal. -/
theorem ext_column {n : Nat} {α : Type} {f g : (⟨2, ![n, 1]⟩ : Shape).Idx → α}
    (h : ∀ p : Fin n, f (ix2 p (0 : Fin 1)) = g (ix2 p (0 : Fin 1))) : f = g := by
  funext j
  obtain ⟨p, rfl⟩ := exists_row j
  exact h p

/-- The score depends on the column only through its entries. -/
theorem score_congr (adj : (⟨2, ![10000, 10000]⟩ : Shape).Idx → EReal) {q q' : Fin 10000 → EReal} (b : EReal)
    (h : ∀ j, q j = q' j) (p : Fin 10000) : score adj q b p = score adj q' b p := by
  rw [show q = q' from funext h]

end Cert.GraphConv

end
-- ==== Proof.KRun.lean ====
import proofs.«133346_j6055903887557_2_alg».proof.Proof.Gen.KernelIdeal.Frame

/-!
# The kernel program's run, with its result kept

The program is five segments: host operations, the first kernel's grid, one more host operation, the second
kernel's grid, and the host operations that turn the scores into one probability. Every weakly fair execution
terminates, and when it does each buffer that lives for the whole program holds what the last segment boundary
says it holds: the fold of the segments over the launch memory. Stated here for the result buffer beside the
eight arguments, which end as they were launched.
-/

set_option maxRecDepth 16384

noncomputable section

namespace Cert.GraphConv.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds what the
    last segment boundary gives it, and the arguments hold what they were launched with. -/
theorem run : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.GraphConv.KernelRun

end
-- ==== Proof.KFold.lean ====
import proofs.«133346_j6055903887557_2_alg».proof.Proof.Gen.KernelIdeal.Frame
import proofs.«133346_j6055903887557_2_alg».proof.Proof.Spec
import Idealize.ShloMosaic.Lib.StableHlo.Run

/-!
# What each segment finds, and what the last one leaves

The program's memory is followed from the launch through its five segments. The first kernel finds the adjacency
matrix, the second layer's weights and its own output buffer untouched, the projected features `x · W₁` where the
host put them, and the first bias laid out as one row. The second kernel finds the adjacency matrix again, the
first kernel's output where that kernel left it, and the second bias as a 1 × 1 array. The result is the read-out of
what the second kernel left, with the read-out weights and bias as launched.
-/

set_option maxRecDepth 16384

noncomputable section

namespace Cert.GraphConv.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The first kernel's arrays as it finds them -/

theorem first_adj (c : Dev nD) : V1 m ρ c main_arg1 = m ((c : Thread nD τ).loc main_arg1) := by
  show StableHlo.after hostOps0 (W0 m ρ c) (Proc.devRef .tc main_arg1) = _
  after_results

theorem first_feat (c : Dev nD) :
    (V1 m ρ c main_v0 : S10000x5.Idx → Elt F .f32)
      = Host.dotGeneral dot_S10000x2_S2x5_S10000x5_1_0_0_1_n_n none (m ((c : Thread nD τ).loc main_arg0)) (m ((c : Thread nD τ).loc main_arg2)) := by
  show StableHlo.after hostOps0 (W0 m ρ c) (Proc.devRef .tc main_v0) = _
  after_results

theorem first_bias (c : Dev nD) :
    (V1 m ρ c main_v1 : S1x5.Idx → Elt F .f32) = shapeCast S1x5 (m ((c : Thread nD τ).loc main_arg3)) shapeCasts_S5_S1x5 := by
  show StableHlo.after hostOps0 (W0 m ρ c) (Proc.devRef .tc main_v1) = _
  after_results
  rfl

theorem first_w2 (c : Dev nD) : V1 m ρ c main_arg4 = m ((c : Thread nD τ).loc main_arg4) := by
  show StableHlo.after hostOps0 (W0 m ρ c) (Proc.devRef .tc main_arg4) = _
  after_results

/-! ## The second kernel's arrays as it finds them -/

theorem second_adj (c : Dev nD) : V3 m ρ c main_arg1 = m ((c : Thread nD τ).loc main_arg1) := by
  have h1 : V3 m ρ c main_arg1 = W2 m ρ c (Proc.devRef .tc main_arg1) := by
    show StableHlo.after hostOps1 (W2 m ρ c) (Proc.devRef .tc main_arg1) = _
    after_results
  rw [h1]
  exact ((W2_arr m ρ c 0).trans (((dat0 (V1 m ρ) c).arrAt_in 0 rfl _).trans (A_eq0 (V1 m ρ) c 0))).trans (first_adj m ρ c)

theorem second_col (c : Dev nD) : V3 m ρ c main_v2 = (dat0 (V1 m ρ) c).arrAt 4 cfg0.N := by
  have h1 : V3 m ρ c main_v2 = W2 m ρ c (Proc.devRef .tc main_v2) := by
    show StableHlo.after hostOps1 (W2 m ρ c) (Proc.devRef .tc main_v2) = _
    after_results
  rw [h1]
  exact W2_arr m ρ c 4

theorem second_bias (c : Dev nD) :
    (V3 m ρ c main_v3 : S1x1.Idx → Elt F .f32) = shapeCast S1x1 (m ((c : Thread nD τ).loc main_arg5)) shapeCasts_S1_S1x1 := by
  have h0 : W2 m ρ c (Proc.devRef .tc main_arg5) = m ((c : Thread nD τ).loc main_arg5) := by
    rw [W2_of_ne m ρ c main_arg5 (by decide)]
    show StableHlo.after hostOps0 (W0 m ρ c) (Proc.devRef .tc main_arg5) = _
    after_results
  show StableHlo.after hostOps1 (W2 m ρ c) (Proc.devRef .tc main_v3) = _
  after_results
  rw [h0]
  rfl

/-! ## What the last segment leaves in the result buffer -/

theorem last_weights (c : Dev nD) : W4 m ρ c (Proc.devRef .tc main_arg6) = m ((c : Thread nD τ).loc main_arg6) := by
  rw [W4_of_ne m ρ c main_arg6 (by decide)]
  have h1 : W3 m ρ c (Proc.devRef .tc main_arg6) = W2 m ρ c (Proc.devRef .tc main_arg6) := by
    show StableHlo.after hostOps1 (W2 m ρ c) (Proc.devRef .tc main_arg6) = _
    after_results
  rw [h1, W2_of_ne m ρ c main_arg6 (by decide)]
  show StableHlo.after hostOps0 (W0 m ρ c) (Proc.devRef .tc main_arg6) = _
  after_results

theorem last_bias (c : Dev nD) : W4 m ρ c (Proc.devRef .tc main_arg7) = m ((c : Thread nD τ).loc main_arg7) := by
  rw [W4_of_ne m ρ c main_arg7 (by decide)]
  have h1 : W3 m ρ c (Proc.devRef .tc main_arg7) = W2 m ρ c (Proc.devRef .tc main_arg7) := by
    show StableHlo.after hostOps1 (W2 m ρ c) (Proc.devRef .tc main_arg7) = _
    after_results
  rw [h1, W2_of_ne m ρ c main_arg7 (by decide)]
  show StableHlo.after hostOps0 (W0 m ρ c) (Proc.devRef .tc main_arg7) = _
  after_results

/-- The result is the read-out of the second kernel's output array. -/
theorem result_eq (c : Dev nD) :
    (W5 m ρ c (Proc.devRef .tc main_v15) : S1x1.Idx → Elt F .f32)
      = Cert.GraphConv.readout (F := F) dot_S1x10000_S10000x1_S1x1_1_0_0_1_n_n shapeCasts_S10000x1_S1x10000
          transposes_S1x10000_S10000x1_1_0 bcast_S1_S1x1_1 bcast_S_S1x1
          ((dat1 (V3 m ρ) c).arrAt 3 cfg1.N) (m ((c : Thread nD τ).loc main_arg6)) (m ((c : Thread nD τ).loc main_arg7)) := by
  rw [← W4_arr m ρ c 3, ← last_weights m ρ c, ← last_bias m ρ c]
  show StableHlo.after hostOps2 (W4 m ρ c) (Proc.devRef .tc main_v15) = _
  after_results
  rfl

end Cert.GraphConv.Fold

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.KBody.lean ====
import proofs.«133346_j6055903887557_2_alg».proof.Proof.Gen.KernelIdeal.Skeleton
import proofs.«133346_j6055903887557_2_alg».proof.Proof.Spec
import proofs.«133346_j6055903887557_2_alg».proof.Proof.LibMatmul
import Idealize.ShloMosaic.PureOps.Ideal.Laws
import Idealize.ShloMosaic.Lib.ValueIdx
import Idealize.ShloMosaic.Lib.Pipeline.Value

/-!
# What one grid step computes, row by row

Each grid step holds 200 consecutive rows of the adjacency matrix. The first kernel's step computes, for row `r` of
its block, the five hidden channels (the row times the five columns of the projected features, plus the bias row,
clamped below at zero) and combines them with the second layer's weights; the second kernel's step computes the
row times the column of hidden projections, plus the bias. Both are read here at a row as plain sums: a product
accumulated from zero is the sum itself, a row of biases broadcast down the block is read at its column, and a
reshape to the same shape changes nothing.
-/

noncomputable section

namespace Cert.GraphConv.Body

open Cert.KernelIdeal Cert.KernelIdeal.Gen Idealize.ShloMosaic Idealize.ShloMosaic.ValueIdx Cert.LibMatmul

/-- The zero word is the number zero. -/
theorem zero_word : (FloatOps.ofBits .f32 0x00000000#32 : Ideal .f32) = 0 := Ideal.ofBits_zero_f32

/-- A 1 × b row broadcast down a rows, read at (r, c), is the row at column c. -/
theorem bcast_row_apply {a b : Nat} {α : Type} (x : (⟨2, ![1, b]⟩ : Shape).Idx → α)
    (h : (⟨2, ![1, b]⟩ : Shape).Broadcasts ⟨2, ![a, b]⟩) (r : Fin a) (c : Fin b) :
    broadcastTo ⟨2, ![a, b]⟩ x h (ix2 r c) = x (ix2 (0 : Fin 1) c) := by
  refine broadcastTo_apply x h (ix2 r c) (ix2 (0 : Fin 1) c) fun d => ?_
  match d with
  | ⟨0, _⟩ => show (0 : Nat) = if (1 : Nat) = 1 then 0 else _; rw [if_pos rfl]
  | ⟨1, _⟩ =>
    show c.val = if b = 1 then 0 else c.val
    by_cases hb : b = 1
    · rw [if_pos hb]; have := c.isLt; omega
    · rw [if_neg hb]

/-- Row `r` of the first kernel's block: the five clamped channels combined by the second layer's weights. -/
theorem pay0_apply (v0 : FVec Ideal S200x10000 .f32) (v1 : FVec Ideal S10000x5 .f32) (v4 : FVec Ideal S1x5 .f32)
    (v10 : FVec Ideal S5x1 .f32) (r : Fin 200) :
    k0_pay1 (F := Ideal) v0 v1 v4 v10 (ix2 r (0 : Fin 1))
      = ∑ c : Fin 5, max ((∑ j : Fin 10000, v0 (ix2 r j) * v1 (ix2 j c)) + v4 (ix2 (0 : Fin 1) c)) 0 * v10 (ix2 c (0 : Fin 1)) := by
  unfold k0_pay1
  simp only [matmul]
  rw [matmul_zero_eq dot_S200x5_S5x1_S200x1_1_0_0_1_n_n rfl rfl rfl rfl rfl rfl, MM_apply]
  refine Finset.sum_congr rfl fun c _ => ?_
  rw [shapeCast_self, shapeCast_self, matmul_zero_eq dot_S200x10000_S10000x5_S200x5_1_0_0_1_n_n rfl rfl rfl rfl rfl rfl,
    maximumf_apply, addf_apply, MM_apply, broadcast_apply, bcast_row_apply, zero_word]

/-- Row `r` of the second kernel's block: the adjacency row times the column, plus the bias. -/
theorem pay1_apply (v0 : FVec Ideal S200x10000 .f32) (v1 : FVec Ideal S10000x1 .f32) (v4 : FVec Ideal S1x1 .f32)
    (r : Fin 200) :
    k1_pay1 (F := Ideal) v0 v1 v4 (ix2 r (0 : Fin 1))
      = (∑ j : Fin 10000, v0 (ix2 r j) * v1 (ix2 j (0 : Fin 1))) + v4 (ix2 (0 : Fin 1) (0 : Fin 1)) := by
  unfold k1_pay1
  simp only [matmul]
  rw [shapeCast_self, shapeCast_self, matmul_zero_eq dot_S200x10000_S10000x1_S200x1_1_0_0_1_n_n rfl rfl rfl rfl rfl rfl,
    addf_apply, MM_apply, bcast_row_apply]

end Cert.GraphConv.Body

end
-- ==== Proof.KRegion0.lean ====
import proofs.«133346_j6055903887557_2_alg».proof.Proof.Gen.KernelIdeal.Frame
import proofs.«133346_j6055903887557_2_alg».proof.Proof.Spec
import proofs.«133346_j6055903887557_2_alg».proof.Proof.KBody
import Idealize.ShloMosaic.Lib.Pipeline.Value
import Idealize.ShloMosaic.Lib.ValueIdx

/-!
# The first kernel's output array

The grid has 50 steps; step `t` reads rows `200 t … 200 t + 199` of the adjacency matrix, the whole of the projected
features, the bias row and the second layer's weights, and writes rows `200 t … 200 t + 199` of the output column.
Row `r` of step `t`'s block is row `200 t + r` of the array, so what the step writes back is that block of ONE
column: the hidden projection of every node. The fifty blocks tile the column (row `i` lies in block `i / 200`),
so after the last step the array is that column.
-/

set_option maxRecDepth 16384

noncomputable section

namespace Cert.GraphConv.First

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The column of hidden projections as one array, of the four arrays the kernel finds: the adjacency matrix, the
    projected features, the bias as a 1 × 5 row and the second layer's weights as a 5 × 1 column. -/
def col (A : S10000x10000.Idx → EReal) (P : S10000x5.Idx → EReal) (B : S1x5.Idx → EReal) (W : S5x1.Idx → EReal) :
    S10000x1.Idx → EReal :=
  fun j => hidden A P (fun c => B (ix2 (0 : Fin 1) c)) (fun c => W (ix2 c (0 : Fin 1))) ⟨(j 0).val, idx2_lt0 j⟩

theorem col_apply (A : S10000x10000.Idx → EReal) (P : S10000x5.Idx → EReal) (B : S1x5.Idx → EReal) (W : S5x1.Idx → EReal)
    (p : Fin 10000) :
    col A P B W (ix2 p (0 : Fin 1)) = hidden A P (fun c => B (ix2 (0 : Fin 1) c)) (fun c => W (ix2 c (0 : Fin 1))) p := rfl

/-- The index maps over the grid: the adjacency window and the output window move together along the rows, one block
    per step; the other three windows stay put; nothing moves along the columns. -/
theorem idx_facts : ∀ t : Fin cfg0.N, win0_0.index t (0 : Fin 2) = win0_4.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) = t.val :=
  (by decide +kernel : ∀ t : Fin grid0.N, _)

theorem lt_points (t : Fin cfg0.N) : t.val < 50 := N_0 ▸ t.isLt

/-- Row `r` of step `t`'s block is row `200 t + r` of the array. -/
def rowOf (t : Fin cfg0.N) (r : Fin 200) : Fin 10000 := ⟨t.val * 200 + r.val, by have := lt_points t; have := r.isLt; omega⟩

/-- The adjacency block at step `t`, row `r`, column `j`, is the matrix at row `200 t + r`, column `j`. -/
theorem read_adj (c : Dev nD) (t : Fin cfg0.N) (r : Fin 200) (j : Fin 10000) :
    iblk0 V c 0 t (ix2 r j) = V c main_arg1 (ix2 (rowOf t r) j) := by
  obtain ⟨e00, e01, -, -, -, -, -, -, -, e40⟩ := idx_facts t
  show V c main_arg1 (((cfg0.win 0).blk t).view.emb (ix2 r j)) = _
  refine congrArg (V c main_arg1) (funext fun a => Fin.ext ?_)
  match a with
  | ⟨0, _⟩ => show win0_0.index t (0 : Fin 2) * 200 + 1 * r.val = t.val * 200 + r.val; omega
  | ⟨1, _⟩ => show win0_0.index t (1 : Fin 2) * 10000 + 1 * j.val = j.val; omega

/-- The other three windows hold their whole arrays at every step. -/
theorem read_feat (c : Dev nD) (t : Fin cfg0.N) (j : Fin 10000) (ch : Fin 5) :
    iblk0 V c 1 t (ix2 j ch) = V c main_v0 (ix2 j ch) := by
  obtain ⟨-, -, e10, e11, -, -, -, -, -, -⟩ := idx_facts t
  show V c main_v0 (((cfg0.win 1).blk t).view.emb (ix2 j ch)) = _
  refine congrArg (V c main_v0) (funext fun a => Fin.ext ?_)
  match a with
  | ⟨0, _⟩ => show win0_1.index t (0 : Fin 2) * 10000 + 1 * j.val = j.val; omega
  | ⟨1, _⟩ => show win0_1.index t (1 : Fin 2) * 5 + 1 * ch.val = ch.val; omega

theorem read_bias (c : Dev nD) (t : Fin cfg0.N) (ch : Fin 5) :
    iblk0 V c 2 t (ix2 (0 : Fin 1) ch) = V c main_v1 (ix2 (0 : Fin 1) ch) := by
  obtain ⟨-, -, -, -, e20, e21, -, -, -, -⟩ := idx_facts t
  show V c main_v1 (((cfg0.win 2).blk t).view.emb (ix2 (0 : Fin 1) ch)) = _
  refine congrArg (V c main_v1) (funext fun a => Fin.ext ?_)
  match a with
  | ⟨0, _⟩ => show win0_2.index t (0 : Fin 2) * 1 + 1 * 0 = 0; omega
  | ⟨1, _⟩ => show win0_2.index t (1 : Fin 2) * 5 + 1 * ch.val = ch.val; omega

theorem read_w2 (c : Dev nD) (t : Fin cfg0.N) (ch : Fin 5) :
    iblk0 V c 3 t (ix2 ch (0 : Fin 1)) = V c main_arg4 (ix2 ch (0 : Fin 1)) := by
  obtain ⟨-, -, -, -, -, -, e30, e31, -, -⟩ := idx_facts t
  show V c main_arg4 (((cfg0.win 3).blk t).view.emb (ix2 ch (0 : Fin 1))) = _
  refine congrArg (V c main_arg4) (funext fun a => Fin.ext ?_)
  match a with
  | ⟨0, _⟩ => show win0_3.index t (0 : Fin 2) * 5 + 1 * ch.val = ch.val; omega
  | ⟨1, _⟩ => show win0_3.index t (1 : Fin 2) * 1 + 1 * 0 = 0; omega

/-- Row `r` of step `t`'s output block sits at row `200 t + r` of the output array. -/
theorem out_row (t : Fin cfg0.N) (r : Fin 200) :
    ((cfg0.win 4).blk t).view.emb (ix2 r (0 : Fin 1)) = ix2 (rowOf t r) (0 : Fin 1) := by
  obtain ⟨-, -, -, -, -, -, -, -, e41, e40⟩ := idx_facts t
  refine funext fun a => Fin.ext ?_
  match a with
  | ⟨0, _⟩ => show win0_4.index t (0 : Fin 2) * 200 + 1 * r.val = t.val * 200 + r.val; omega
  | ⟨1, _⟩ => show win0_4.index t (1 : Fin 2) * 1 + 1 * 0 = 0; omega

/-- What step `t` writes back is block `t` of the column of hidden projections. -/
theorem flushed_eq (c : Dev nD) (t : Fin cfg0.N) :
    (dat0 V c).flushed 4 t = ((cfg0.win 4).blk t).view.read (Elt Ideal)
      (col (V c main_arg1) (V c main_v0) (V c main_v1) (V c main_arg4)) := by
  show (cfg0.win 4).cut (grid0.coords t) ((dat0 V c).after 4 t) = _
  rw [after0_4]
  unfold out0_4
  rw [View.canon_unit_zero hz]
  simp only [View.ld_unit_zero (S := S200x10000) hz, View.ld_unit_zero (S := S10000x5) hz, View.ld_unit_zero (S := S1x5) hz, View.ld_unit_zero (S := S5x1) hz]
  funext y
  obtain ⟨r, rfl⟩ := exists_row (n := 200) y
  show k0_pay1 (iblk0 V c 0 t) (iblk0 V c 1 t) (iblk0 V c 2 t) (iblk0 V c 3 t) (ix2 r (0 : Fin 1))
    = col (V c main_arg1) (V c main_v0) (V c main_v1) (V c main_arg4) (((cfg0.win 4).blk t).view.emb (ix2 r (0 : Fin 1)))
  rw [out_row, col_apply]
  refine (Body.pay0_apply _ _ _ _ r).trans ?_
  unfold hidden
  refine Finset.sum_congr rfl fun ch _ => ?_
  rw [read_bias, read_w2]
  refine congrArg (fun s => max (s + V c main_v1 (ix2 (0 : Fin 1) ch)) 0 * V c main_arg4 (ix2 ch (0 : Fin 1))) ?_
  refine Finset.sum_congr rfl fun j _ => ?_
  rw [read_adj, read_feat]

/-- An index of the output array is in step `t`'s block iff each coordinate is in the block's range. -/
theorem mem_blk (t : Fin cfg0.N) (i : S10000x1.Idx) :
    i ∈ ((cfg0.win 4).blk t).view.set ↔ ∀ a : Fin 2, win0_4.index t a * S200x1.size a ≤ (i a).val ∧ (i a).val < win0_4.index t a * S200x1.size a + S200x1.size a := by
  show i ∈ ((View.whole main_v2).slice (win0_4.rect t)).set ↔ _
  rw [View.set_slice_whole, Rect.mem_set_unit]
  exact Iff.rfl

/-- The fifty blocks tile the output column: row `i` is in block `i / 200`. -/
theorem cover (i : S10000x1.Idx) : ∃ t : Fin cfg0.N, (cfg0.win 4).flush t = true ∧ i ∈ ((cfg0.win 4).blk t).view.set := by
  have hi0 : (i 0).val < 10000 := idx2_lt0 i
  have hi1 : (i 1).val < 1 := idx2_lt1 i
  have hN : cfg0.N = 50 := N_0
  let t : Fin cfg0.N := ⟨(i 0).val / 200, by rw [hN]; omega⟩
  have htv : t.val = (i 0).val / 200 := rfl
  obtain ⟨-, -, -, -, -, -, -, -, e41, e40⟩ := idx_facts t
  refine ⟨t, flush0_4 t, ?_⟩
  rw [mem_blk]
  intro a
  match a with
  | ⟨0, _⟩ => show win0_4.index t (0 : Fin 2) * 200 ≤ (i 0).val ∧ (i 0).val < win0_4.index t (0 : Fin 2) * 200 + 200; omega
  | ⟨1, _⟩ => show win0_4.index t (1 : Fin 2) * 1 ≤ (i 1).val ∧ (i 1).val < win0_4.index t (1 : Fin 2) * 1 + 1; omega

/-- After the last step the output array is the column of hidden projections. -/
theorem array_eq (c : Dev nD) :
    (dat0 V c).arrAt 4 cfg0.N = col (V c main_arg1) (V c main_v0) (V c main_v1) (V c main_arg4) :=
  (dat0 V c).arrAt_eq_of_cover 4 _ (fun t _ => flushed_eq V c t) cover

end Cert.GraphConv.First

end
-- ==== Proof.KRegion1.lean ====
import proofs.«133346_j6055903887557_2_alg».proof.Proof.Gen.KernelIdeal.Frame
import proofs.«133346_j6055903887557_2_alg».proof.Proof.Spec
import proofs.«133346_j6055903887557_2_alg».proof.Proof.KBody
import Idealize.ShloMosaic.Lib.Pipeline.Value
import Idealize.ShloMosaic.Lib.ValueIdx

/-!
# The second kernel's output array

Again 50 steps of 200 rows. Step `t` reads rows `200 t … 200 t + 199` of the adjacency matrix, the whole column the
first kernel left and the 1 × 1 bias, and writes rows `200 t … 200 t + 199` of the score column: row `r` of the block
is the score of node `200 t + r`. The blocks tile the column, so after the last step the array holds every node's
score.
-/

set_option maxRecDepth 16384

noncomputable section

namespace Cert.GraphConv.Second

open Cert.KernelIdeal Cert.KernelIdeal.Gen
open Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The column of scores as one array, of the three arrays the kernel finds: the adjacency matrix, the column of
    hidden projections and the bias as a 1 × 1 array. -/
def col (A : S10000x10000.Idx → EReal) (Q : S10000x1.Idx → EReal) (B : S1x1.Idx → EReal) : S10000x1.Idx → EReal :=
  fun j => score A (fun k => Q (ix2 k (0 : Fin 1))) (B (ix2 (0 : Fin 1) (0 : Fin 1))) ⟨(j 0).val, idx2_lt0 j⟩

theorem col_apply (A : S10000x10000.Idx → EReal) (Q : S10000x1.Idx → EReal) (B : S1x1.Idx → EReal) (p : Fin 10000) :
    col A Q B (ix2 p (0 : Fin 1)) = score A (fun k => Q (ix2 k (0 : Fin 1))) (B (ix2 (0 : Fin 1) (0 : Fin 1))) p := rfl

/-- The index maps over the grid: the adjacency window and the output window move together along the rows, one block
    per step; the other two windows stay put; nothing moves along the columns. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) = t.val :=
  (by decide +kernel : ∀ t : Fin grid1.N, _)

theorem lt_points (t : Fin cfg1.N) : t.val < 50 := N_1 ▸ t.isLt

/-- Row `r` of step `t`'s block is row `200 t + r` of the array. -/
def rowOf (t : Fin cfg1.N) (r : Fin 200) : Fin 10000 := ⟨t.val * 200 + r.val, by have := lt_points t; have := r.isLt; omega⟩

/-- The adjacency block at step `t`, row `r`, column `j`, is the matrix at row `200 t + r`, column `j`. -/
theorem read_adj (c : Dev nD) (t : Fin cfg1.N) (r : Fin 200) (j : Fin 10000) :
    iblk1 V c 0 t (ix2 r j) = V c main_arg1 (ix2 (rowOf t r) j) := by
  obtain ⟨e00, e01, -, -, -, -, -, e30⟩ := idx_facts t
  show V c main_arg1 (((cfg1.win 0).blk t).view.emb (ix2 r j)) = _
  refine congrArg (V c main_arg1) (funext fun a => Fin.ext ?_)
  match a with
  | ⟨0, _⟩ => show win1_0.index t (0 : Fin 2) * 200 + 1 * r.val = t.val * 200 + r.val; omega
  | ⟨1, _⟩ => show win1_0.index t (1 : Fin 2) * 10000 + 1 * j.val = j.val; omega

/-- The other two windows hold their whole arrays at every step. -/
theorem read_col (c : Dev nD) (t : Fin cfg1.N) (j : Fin 10000) :
    iblk1 V c 1 t (ix2 j (0 : Fin 1)) = V c main_v2 (ix2 j (0 : Fin 1)) := by
  obtain ⟨-, -, e10, e11, -, -, -, -⟩ := idx_facts t
  show V c main_v2 (((cfg1.win 1).blk t).view.emb (ix2 j (0 : Fin 1))) = _
  refine congrArg (V c main_v2) (funext fun a => Fin.ext ?_)
  match a with
  | ⟨0, _⟩ => show win1_1.index t (0 : Fin 2) * 10000 + 1 * j.val = j.val; omega
  | ⟨1, _⟩ => show win1_1.index t (1 : Fin 2) * 1 + 1 * 0 = 0; omega

theorem read_bias (c : Dev nD) (t : Fin cfg1.N) :
    iblk1 V c 2 t (ix2 (0 : Fin 1) (0 : Fin 1)) = V c main_v3 (ix2 (0 : Fin 1) (0 : Fin 1)) := by
  obtain ⟨-, -, -, -, e20, e21, -, -⟩ := idx_facts t
  show V c main_v3 (((cfg1.win 2).blk t).view.emb (ix2 (0 : Fin 1) (0 : Fin 1))) = _
  refine congrArg (V c main_v3) (funext fun a => Fin.ext ?_)
  match a with
  | ⟨0, _⟩ => show win1_2.index t (0 : Fin 2) * 1 + 1 * 0 = 0; omega
  | ⟨1, _⟩ => show win1_2.index t (1 : Fin 2) * 1 + 1 * 0 = 0; omega

/-- Row `r` of step `t`'s output block sits at row `200 t + r` of the output array. -/
theorem out_row (t : Fin cfg1.N) (r : Fin 200) :
    ((cfg1.win 3).blk t).view.emb (ix2 r (0 : Fin 1)) = ix2 (rowOf t r) (0 : Fin 1) := by
  obtain ⟨-, -, -, -, -, -, e31, e30⟩ := idx_facts t
  refine funext fun a => Fin.ext ?_
  match a with
  | ⟨0, _⟩ => show win1_3.index t (0 : Fin 2) * 200 + 1 * r.val = t.val * 200 + r.val; omega
  | ⟨1, _⟩ => show win1_3.index t (1 : Fin 2) * 1 + 1 * 0 = 0; omega

/-- What step `t` writes back is block `t` of the column of scores. -/
theorem flushed_eq (c : Dev nD) (t : Fin cfg1.N) :
    (dat1 V c).flushed 3 t = ((cfg1.win 3).blk t).view.read (Elt Ideal)
      (col (V c main_arg1) (V c main_v2) (V c main_v3)) := by
  show (cfg1.win 3).cut (grid1.coords t) ((dat1 V c).after 3 t) = _
  rw [after1_3]
  unfold out1_3
  rw [View.canon_unit_zero hz]
  simp only [View.ld_unit_zero (S := S200x10000) hz, View.ld_unit_zero (S := S10000x1) hz, View.ld_unit_zero (S := S1x1) hz]
  funext y
  obtain ⟨r, rfl⟩ := exists_row (n := 200) y
  show k1_pay1 (iblk1 V c 0 t) (iblk1 V c 1 t) (iblk1 V c 2 t) (ix2 r (0 : Fin 1))
    = col (V c main_arg1) (V c main_v2) (V c main_v3) (((cfg1.win 3).blk t).view.emb (ix2 r (0 : Fin 1)))
  rw [out_row, col_apply]
  refine (Body.pay1_apply _ _ _ r).trans ?_
  unfold score
  rw [read_bias]
  refine congrArg (fun s => s + V c main_v3 (ix2 (0 : Fin 1) (0 : Fin 1))) ?_
  refine Finset.sum_congr rfl fun j _ => ?_
  rw [read_adj, read_col]

/-- An index of the output array is in step `t`'s block iff each coordinate is in the block's range. -/
theorem mem_blk (t : Fin cfg1.N) (i : S10000x1.Idx) :
    i ∈ ((cfg1.win 3).blk t).view.set ↔ ∀ a : Fin 2, win1_3.index t a * S200x1.size a ≤ (i a).val ∧ (i a).val < win1_3.index t a * S200x1.size a + S200x1.size a := by
  show i ∈ ((View.whole main_v4).slice (win1_3.rect t)).set ↔ _
  rw [View.set_slice_whole, Rect.mem_set_unit]
  exact Iff.rfl

/-- The fifty blocks tile the score column: row `i` is in block `i / 200`. -/
theorem cover (i : S10000x1.Idx) : ∃ t : Fin cfg1.N, (cfg1.win 3).flush t = true ∧ i ∈ ((cfg1.win 3).blk t).view.set := by
  have hi0 : (i 0).val < 10000 := idx2_lt0 i
  have hi1 : (i 1).val < 1 := idx2_lt1 i
  have hN : cfg1.N = 50 := N_1
  let t : Fin cfg1.N := ⟨(i 0).val / 200, by rw [hN]; omega⟩
  have htv : t.val = (i 0).val / 200 := rfl
  obtain ⟨-, -, -, -, -, -, e31, e30⟩ := idx_facts t
  refine ⟨t, flush1_3 t, ?_⟩
  rw [mem_blk]
  intro a
  match a with
  | ⟨0, _⟩ => show win1_3.index t (0 : Fin 2) * 200 ≤ (i 0).val ∧ (i 0).val < win1_3.index t (0 : Fin 2) * 200 + 200; omega
  | ⟨1, _⟩ => show win1_3.index t (1 : Fin 2) * 1 ≤ (i 1).val ∧ (i 1).val < win1_3.index t (1 : Fin 2) * 1 + 1; omega

/-- After the last step the output array is the column of scores. -/
theorem array_eq (c : Dev nD) :
    (dat1 V c).arrAt 3 cfg1.N = col (V c main_arg1) (V c main_v2) (V c main_v3) :=
  (dat1 V c).arrAt_eq_of_cover 3 _ (fun t _ => flushed_eq V c t) cover

end Cert.GraphConv.Second

end
-- ==== Proof.KValue.lean ====
import proofs.«133346_j6055903887557_2_alg».proof.Proof.KFold
import proofs.«133346_j6055903887557_2_alg».proof.Proof.KRegion0
import proofs.«133346_j6055903887557_2_alg».proof.Proof.KRegion1
import proofs.«133346_j6055903887557_2_alg».proof.Proof.Spec
import Idealize.ShloMosaic.Lib.Pipeline.Value
import Idealize.ShloMosaic.Lib.ValueIdx

/-!
# The kernel program's value

The first kernel's grid leaves the column of hidden projections, computed from the adjacency matrix, the projected
features, the first bias laid out as a row and the second layer's weights. The second kernel's grid finds that column
and leaves the column of scores. A bias laid out as a 1 × n row is read at its column. So the array the read-out is
applied to is the specification's column of scores, of the arguments as launched.
-/

set_option maxRecDepth 16384

noncomputable section

namespace Cert.GraphConv.KernelValue

open Cert.KernelIdeal Cert.KernelIdeal.Gen
open Idealize.ShloMosaic Idealize.ShloMosaic.TcCoe Idealize.SL.Sem Idealize.ShloMosaic.ValueIdx

/-- n numbers laid out as one row, read at row zero and column `c`, are the `c`-th number. -/
theorem row_of_vec {n : Nat} {α : Type} (x : (⟨1, ![n]⟩ : Shape).Idx → α)
    (h : (⟨1, ![n]⟩ : Shape).ShapeCasts ⟨2, ![1, n]⟩) (c : Fin n) :
    shapeCast ⟨2, ![1, n]⟩ x h (ix2 (0 : Fin 1) c) = x (ix1 c) := by
  refine shapeCast_apply x h (ix2 (0 : Fin 1) c) (ix1 c) ?_
  rw [Shape.rowMajor_val_one, Shape.rowMajor_val_two]
  show c.val = 0 * n + c.val
  omega

variable (m : (ℓ : Loc nD τ sig) → Buf (Elt Ideal) ℓ) (ρ : Dev nD → PrngReg)

/-- The array the second kernel's grid leaves is the column of scores of the launched arguments. -/
theorem scores_eq (c : Dev nD) :
    (dat1 (V3 m ρ) c).arrAt 3 cfg1.N
      = scoreColumn (m ((c : Thread nD τ).loc main_arg1))
          (Host.dotGeneral (F := Ideal) (φ₁ := .f32) (φ₂ := .f32) dot_S10000x2_S2x5_S10000x5_1_0_0_1_n_n none (m ((c : Thread nD τ).loc main_arg0)) (m ((c : Thread nD τ).loc main_arg2)))
          (m ((c : Thread nD τ).loc main_arg3)) (m ((c : Thread nD τ).loc main_arg4)) (m ((c : Thread nD τ).loc main_arg5)) := by
  rw [Second.array_eq (V3 m ρ) c, Fold.second_adj m ρ c, Fold.second_col m ρ c, Fold.second_bias m ρ c,
    First.array_eq (V1 m ρ) c, Fold.first_adj m ρ c, Fold.first_feat m ρ c, Fold.first_bias m ρ c, Fold.first_w2 m ρ c]
  refine ext_column fun p => ?_
  rw [Second.col_apply, scoreColumn_apply, row_of_vec]
  refine score_congr _ _ (fun k => ?_) p
  rw [First.col_apply]
  unfold hidden
  refine Finset.sum_congr rfl fun ch _ => ?_
  beta_reduce
  rw [row_of_vec]

end Cert.GraphConv.KernelValue

end
-- ==== Proof.RefValue.lean ====
import proofs.«133346_j6055903887557_2_alg».proof.Proof.Gen.ReferenceIdeal.Read
import proofs.«133346_j6055903887557_2_alg».proof.Proof.Spec

/-!
# The reference program's value

The reference computes each layer as whole-array operations: a matrix product with the adjacency matrix, a bias
broadcast to every row, the clamp at zero, a product with the second layer's weights, another product with the
adjacency matrix, another bias, and then the read-out. Read one operation at a time at a row, its score stage is
the two sums of the specification; its result is the read-out of that stage.
-/

noncomputable section

namespace Cert.GraphConv.Reference

open Cert.ReferenceIdeal Cert.ReferenceIdeal.Gen Cert.ReferenceIdeal.Read
open Idealize.ShloMosaic Idealize.ShloMosaic.TcCoe Idealize.SL.Sem Idealize.ShloMosaic.ValueIdx

/-! ## Where each operation reads its operands -/

theorem adj_at_score (p k : Fin 10000) : lidx_main_v7 (ix2 p (0 : Fin 1)) k = ix2 p k :=
  funext fun a => by match a with | ⟨0, _⟩ => rfl | ⟨1, _⟩ => rfl
theorem col_at_score (p k : Fin 10000) : ridx_main_v7 (ix2 p (0 : Fin 1)) k = ix2 k (0 : Fin 1) :=
  funext fun a => by match a with | ⟨0, _⟩ => rfl | ⟨1, _⟩ => rfl
theorem hid_at_proj (k : Fin 10000) (c : Fin 5) : lidx_main_v6 (ix2 k (0 : Fin 1)) c = ix2 k c :=
  funext fun a => by match a with | ⟨0, _⟩ => rfl | ⟨1, _⟩ => rfl
theorem w2_at_proj (k : Fin 10000) (c : Fin 5) : ridx_main_v6 (ix2 k (0 : Fin 1)) c = ix2 c (0 : Fin 1) :=
  funext fun a => by match a with | ⟨0, _⟩ => rfl | ⟨1, _⟩ => rfl
theorem adj_at_hid (k : Fin 10000) (c : Fin 5) (j : Fin 10000) : lidx_main_v1 (ix2 k c) j = ix2 k j :=
  funext fun a => by match a with | ⟨0, _⟩ => rfl | ⟨1, _⟩ => rfl
theorem feat_at_hid (k : Fin 10000) (c : Fin 5) (j : Fin 10000) : ridx_main_v1 (ix2 k c) j = ix2 j c :=
  funext fun a => by match a with | ⟨0, _⟩ => rfl | ⟨1, _⟩ => rfl
theorem bias1_at (k : Fin 10000) (c : Fin 5) : idx_main_v2 (idx_main_v3 (ix2 k c)) = ix1 c :=
  funext fun a => by match a with | ⟨0, _⟩ => rfl
theorem bias2_at (j : S1x1.Idx) : idx_main_v8 j = ix1 (0 : Fin 1) :=
  funext fun a => by match a with | ⟨0, _⟩ => rfl

/-! ## The score stage at a row -/

/-- Node `p`'s entry of the score stage is the specification's score, over the hidden projections. -/
theorem score_apply (x0 : S10000x2.Idx → EReal) (x1 : S10000x10000.Idx → EReal) (x2 : S2x5.Idx → EReal) (x3 : S5.Idx → EReal)
    (x4 : S5x1.Idx → EReal) (x5 : S1.Idx → EReal) (p : Fin 10000) :
    val_main_v10 (F := Ideal) x0 x1 x2 x3 x4 x5 (ix2 p (0 : Fin 1))
      = score x1 (hidden x1 (val_main_v0 (F := Ideal) x0 x2) (fun c => x3 (ix1 c)) (fun c => x4 (ix2 c (0 : Fin 1))))
          (x5 (ix1 (0 : Fin 1))) p := by
  unfold score hidden
  simp only [val_main_v10_apply, val_main_v7_apply, val_main_v9_apply, val_main_v8_apply, val_main_v6_apply, val_main_v5_apply,
    val_main_call0_v0_apply, val_main_call0_cst_apply, val_main_v4_apply, val_main_v1_apply, val_main_v3_apply, val_main_v2_apply,
    adj_at_score, col_at_score, hid_at_proj, w2_at_proj, adj_at_hid, feat_at_hid, bias1_at, bias2_at,
    Ideal.addf_def, Ideal.maximumf_def, Ideal.ofBits_def, Ideal.ofBits_zero_f32]

/-- The score stage is the specification's column of scores. -/
theorem scores_eq (x0 : S10000x2.Idx → EReal) (x1 : S10000x10000.Idx → EReal) (x2 : S2x5.Idx → EReal) (x3 : S5.Idx → EReal)
    (x4 : S5x1.Idx → EReal) (x5 : S1.Idx → EReal) :
    val_main_v10 (F := Ideal) x0 x1 x2 x3 x4 x5 = scoreColumn x1 (val_main_v0 (F := Ideal) x0 x2) x3 x4 x5 :=
  ext_column fun p => (score_apply x0 x1 x2 x3 x4 x5 p).trans (scoreColumn_apply _ _ _ _ _ p).symm

/-! ## The result is the read-out of the score stage -/

theorem result_eq (x0 : S10000x2.Idx → EReal) (x1 : S10000x10000.Idx → EReal) (x2 : S2x5.Idx → EReal) (x3 : S5.Idx → EReal)
    (x4 : S5x1.Idx → EReal) (x5 : S1.Idx → EReal) (x6 : S1x10000.Idx → EReal) (x7 : S1.Idx → EReal) :
    val_main_v21 (F := Ideal) x0 x1 x2 x3 x4 x5 x6 x7
      = readout (F := Ideal) dot_S1x10000_S10000x1_S1x1_1_0_0_1_n_n shapeCasts_S10000x1_S1x10000
          transposes_S1x10000_S10000x1_1_0 bcast_S1_S1x1_1 bcast_S_S1x1
          (val_main_v10 (F := Ideal) x0 x1 x2 x3 x4 x5) x6 x7 := rfl

end Cert.GraphConv.Reference

end
-- ==== Proof.lean ====
/-
  Two graph-convolution layers and a logistic read-out over 10000 nodes: for the adjacency matrix `adj`, node
  features `x`, weights `W₁`, `W₂`, biases `b₁`, `b₂` and read-out weights and bias,

      h = relu (adj · (x · W₁) + b₁),   s = adj · (h · W₂) + b₂,   result = 1 / (1 + exp (-(sᵀ · lin_Wᵀ + lin_b))).

  The reference computes each line as whole-array operations. The kernel program computes `x · W₁` on the host, then
  streams the adjacency matrix twice in blocks of 200 rows: the first pass writes `relu (adj · P + b₁) · W₂` row block by
  row block (bias, clamp and projection fused into the block), the second writes `adj · q + b₂`; the read-out is the same
  host operations as the reference's.

  On the extended reals the two programs compute the same sums in the same order and grouping: a block's row `r` at grid
  step `t` is the array's row `200 t + r`, a product accumulated from zero is the sum itself, and a bias reshaped to a row
  and broadcast down a block is the bias at its column. So the column of scores is ONE function of the arguments on both
  sides (`Cert.GraphConv.scoreColumn`), and both results are the read-out (`Cert.GraphConv.readout`) of it; the read-out is
  never opened. No step regroups a sum or distributes a product, so the finiteness of the inputs is not used.

  The three frames: each kernel program's is the frame proved for its segments; the reference has no kernel, and its
  frame is its run with the result dropped. Nothing was rewritten between the kernel program and its idealization.
-/
import proofs.«133346_j6055903887557_2_alg».proof.Defs
import proofs.«133346_j6055903887557_2_alg».proof.Proof.Gen.Kernel
import proofs.«133346_j6055903887557_2_alg».proof.Proof.Gen.Kernel.Frame
import proofs.«133346_j6055903887557_2_alg».proof.Proof.Gen.KernelIdeal
import proofs.«133346_j6055903887557_2_alg».proof.Proof.Gen.KernelIdeal.Frame
import proofs.«133346_j6055903887557_2_alg».proof.Proof.Gen.ReferenceIdeal
import proofs.«133346_j6055903887557_2_alg».proof.Proof.Gen.ReferenceIdeal.Run
import proofs.«133346_j6055903887557_2_alg».proof.Proof.Gen.ReferenceIdeal.Read
import proofs.«133346_j6055903887557_2_alg».proof.Proof.Gen.Pre_finite_inputs
import proofs.«133346_j6055903887557_2_alg».proof.Proof.Spec
import proofs.«133346_j6055903887557_2_alg».proof.Proof.KRun
import proofs.«133346_j6055903887557_2_alg».proof.Proof.KFold
import proofs.«133346_j6055903887557_2_alg».proof.Proof.KValue
import proofs.«133346_j6055903887557_2_alg».proof.Proof.RefValue
import Idealize.ShloMosaic.Adequacy
import Idealize.ShloMosaic.Init

noncomputable section

namespace Cert.Proof

open Idealize.ShloMosaic Idealize.ShloMosaic.TcCoe Idealize.SL.Sem Cert.GraphConv

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The two programs' dimension numbers for `x · W₁` are the same record. -/
theorem featDims_eq : Cert.ReferenceIdeal.dot_S10000x2_S2x5_S10000x5_1_0_0_1_n_n = Cert.KernelIdeal.dot_S10000x2_S2x5_S10000x5_1_0_0_1_n_n := rfl

/-- So are the read-out's. -/
theorem readoutDims_eq : Cert.ReferenceIdeal.dot_S1x10000_S10000x1_S1x1_1_0_0_1_n_n = Cert.KernelIdeal.dot_S1x10000_S10000x1_S1x1_1_0_0_1_n_n := rfl

/-- Both programs end, from memories that agree on the arguments, with the read-out of the specification's column of
    scores in their result buffers. -/
theorem algebraic : Cert.algebraic_KernelIdeal_ReferenceIdeal := by
  intro m ρ m' ρ' _ hagree
  refine ⟨fun c => readout (F := Ideal) Cert.KernelIdeal.dot_S1x10000_S10000x1_S1x1_1_0_0_1_n_n
      Cert.KernelIdeal.Facts₀.shapeCasts_S10000x1_S1x10000 Cert.KernelIdeal.Facts₀.transposes_S1x10000_S10000x1_1_0
      Cert.KernelIdeal.Facts₀.bcast_S1_S1x1_1 Cert.KernelIdeal.Facts₀.bcast_S_S1x1
      (scoreColumn (m ((c.tc : Thread Cert.KernelIdeal.nD Cert.KernelIdeal.τ).loc Cert.KernelIdeal.main_arg1))
        (Host.dotGeneral (F := Ideal) (φ₁ := .f32) (φ₂ := .f32) Cert.KernelIdeal.dot_S10000x2_S2x5_S10000x5_1_0_0_1_n_n none
          (m ((c.tc : Thread Cert.KernelIdeal.nD Cert.KernelIdeal.τ).loc Cert.KernelIdeal.main_arg0))
          (m ((c.tc : Thread Cert.KernelIdeal.nD Cert.KernelIdeal.τ).loc Cert.KernelIdeal.main_arg2)))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5)))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩) (KernelRun.run (F := Ideal) m ρ)
    rw [Fold.result_eq m ρ c, KernelValue.scores_eq m ρ c]
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v21_eq, Reference.result_eq, Reference.scores_eq, e0, e1, e2, e3, e4, e5, e6, e7]
    unfold Cert.ReferenceIdeal.Read.val_main_v0
    rw [featDims_eq, readoutDims_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
